-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 50
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S4096x4096, .f32⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .bf16⟩
  | .hbm, ⟨45, _⟩ => ⟨S8192x4096, .f32⟩
  | .hbm, ⟨46, _⟩ => ⟨S8192x4096, .bf16⟩
  | .hbm, ⟨47, _⟩ => ⟨S1x4096, .f32⟩
  | .hbm, ⟨48, _⟩ => ⟨S8192x4096, .f32⟩
  | .hbm, ⟨49, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v33) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S1x1x4096 : Shape := ⟨3, ![1, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4x2048x4096, .f32⟩
  | .hbm, ⟨61, _⟩ => ⟨S1x1x4096, .f32⟩
  | .hbm, ⟨62, _⟩ => ⟨S4x2048x4096, .f32⟩
  | .hbm, ⟨63, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_cst_3 : Ref sig .tc := ⟨.hbm, 23, rfl⟩
abbrev main_call0_call0_v11 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_v0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S1x1 : S_.BroadcastsInDim S1x1 (![] : Fin 0 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  natLt_1_32 : 1 < 32
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelCases.lean ====
/-
  What the kernel body leaves behind at one grid point, case by case, as values of the blocks it loaded.

  The body keeps a [1024, 2048] accumulator across the four points of a K-sweep.  At the first point of a sweep it
  stores the zero block and then adds the product of the point's lhs and rhs blocks (case A: the accumulator ends
  at  0 ⊕ a·bᵀ);  at a middle point it adds the product to what the point before left (case B:  acc ⊕ a·bᵀ);  at the
  last point it does the same and then stores accumulator plus the bias row, broadcast along the rows, into the
  output block (case C).  Each statement says that what the run found in a buffer is the body's pure arithmetic of
  the loaded blocks.
-/
import proofs.«131205_j6511170421195_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offset of a rank-2 rectangle. -/
theorem hz : (![0, 0] : Fin 2 → Nat) = fun _ => 0 := funext fun a => by fin_cases a <;> rfl

/-- A middle point of a sweep: the accumulator ends at what it held plus the product of the two blocks. -/
theorem sout_B (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x1024 .bf16) (x1 : Vec F S2048x1024 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S1024x2048) hz, View.ld_unit_zero (S := S1024x1024) hz, View.ld_unit_zero (S := S2048x1024) hz]

/-- The last point of a sweep, the accumulator: the same update. -/
theorem sout_C (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S2048x1024 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread,
    View.ld_unit_zero (S := S1024x2048) hz, View.ld_unit_zero (S := S1024x1024) hz, View.ld_unit_zero (S := S2048x1024) hz]

/-- The last point of a sweep, the output block: the updated accumulator plus the bias row along the rows. -/
theorem out_C (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S2048x1024 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x2048) _ hz]
  simp only [View.readAt_eq_ld, harg7.read_unread, harg3.read_unread, harg4.read_unread, harg5.read_unread,
    View.ld_unit_zero (S := S1024x2048) hz, View.ld_unit_zero (S := S1024x1024) hz, View.ld_unit_zero (S := S2048x1024) hz,
    View.ld_unit_zero (S := S1x2048) hz]

/-- The first point of a sweep: the accumulator ends at the zero block plus the product of the two blocks. -/
theorem sout_A (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x1024 .bf16) (x1 : Vec F S2048x1024 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread,
    View.ld_unit_zero (S := S1024x1024) hz, View.ld_unit_zero (S := S2048x1024) hz]

end Cert.KernelIdeal.Acc

end
-- ==== Proof.KernelAcc.lean ====
/-
  The accumulator across a K-sweep, point by point.

  The grid is (8, 2, 4), the last axis innermost: point n has K-block n mod 4.  The accumulator after point n is
  defined by recursion on n: at the first point of a sweep (n ≡ 0 mod 4) it is the zero block plus the product of
  the point's lhs and rhs blocks, otherwise what the point before left plus that product.  What the run found in the
  carried scratch after each point is this accumulator, and at the last point of a sweep (n ≡ 3 mod 4) the output
  block it stored is the accumulator plus the bias row.
-/
import proofs.«131205_j6511170421195_2_alg».proof.Proof.KernelCases

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- First point of a sweep: the scratch ends at the zero block plus the product of the point's blocks. -/
theorem snd_A (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- Middle point of a sweep: what the point before left plus the product. -/
theorem snd_B (c : Dev nD) (t : Fin cfg0.N) (h0 : ¬t.val % 4 = 0) (h1 : ¬t.val % 4 = 3) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  exact sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
    (outsAt0 m c (t.val - 1) (Nat.lt_of_le_of_lt (Nat.sub_le _ _) t.isLt)).2

/-- Last point of a sweep, the scratch: the same update. -/
theorem snd_C (c : Dev nD) (t : Fin cfg0.N) (h0 : ¬t.val % 4 = 0) (h1 : t.val % 4 = 3) :
    (outsAt0 m c t.val t.isLt).2
      = k0_pay2 (outsAt0 m c (t.val - 1) (Nat.lt_of_le_of_lt (Nat.sub_le _ _) t.isLt)).2 (iblk m c 0 t) (iblk m c 1 t) := by
  rw [outsAt0_C m c t h0 h1]
  dsimp only
  exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- Last point of a sweep, the output block: the updated accumulator plus the bias row along the rows. -/
theorem fst_C (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (iblk m c 0 t) (iblk m c 1 t))
          (iblk m c 2 t) := by
  rw [outsAt0_C m c t h0 h1]
  dsimp only
  exact out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- The accumulator after point n: restarted from the zero block at the first point of each sweep. -/
def acc (c : Dev nD) : (n : ℕ) → n < cfg0.N → Vec F S1024x2048 .f32
  | 0, h => k0_pay2 (k0_pay1 (F := F)) (iblk m c 0 ⟨0, h⟩) (iblk m c 1 ⟨0, h⟩)
  | n + 1, h =>
    if (n + 1) % 4 = 0 then k0_pay2 (k0_pay1 (F := F)) (iblk m c 0 ⟨n + 1, h⟩) (iblk m c 1 ⟨n + 1, h⟩)
    else k0_pay2 (acc c n (Nat.lt_of_succ_lt h)) (iblk m c 0 ⟨n + 1, h⟩) (iblk m c 1 ⟨n + 1, h⟩)

theorem acc_first (c : Dev nD) (n : ℕ) (h : n < cfg0.N) (h0 : n % 4 = 0) :
    acc m c n h = k0_pay2 (k0_pay1 (F := F)) (iblk m c 0 ⟨n, h⟩) (iblk m c 1 ⟨n, h⟩) := by
  cases n with
  | zero => rfl
  | succ n => exact if_pos h0

theorem acc_next (c : Dev nD) (n : ℕ) (h : n + 1 < cfg0.N) (h0 : ¬(n + 1) % 4 = 0) :
    acc m c (n + 1) h = k0_pay2 (acc m c n (Nat.lt_of_succ_lt h)) (iblk m c 0 ⟨n + 1, h⟩) (iblk m c 1 ⟨n + 1, h⟩) :=
  if_neg h0

/-- What the carried scratch holds after point n is the accumulator. -/
theorem outsAt_snd (c : Dev nD) : ∀ (n : ℕ) (h : n < cfg0.N), (outsAt0 m c n h).2 = acc m c n h
  | 0, h => (snd_A m c ⟨0, h⟩ rfl).trans (acc_first m c 0 h rfl).symm
  | n + 1, h => by
    by_cases h0 : (n + 1) % 4 = 0
    · rw [acc_first m c (n + 1) h h0]
      exact snd_A m c ⟨n + 1, h⟩ h0
    · rw [acc_next m c n h h0, ← outsAt_snd c n (Nat.lt_of_succ_lt h)]
      by_cases h1 : (n + 1) % 4 = 3
      · exact snd_C m c ⟨n + 1, h⟩ h0 h1
      · exact snd_B m c ⟨n + 1, h⟩ h0 h1

/-- At the last point of a sweep the output block is the accumulator plus the bias row along the rows. -/
theorem outsAt_fst (c : Dev nD) (t : Fin cfg0.N) (h3 : t.val % 4 = 3) :
    (outsAt0 m c t.val t.isLt).1 = k0_pay3 (acc m c t.val t.isLt) (iblk m c 2 t) := by
  have h0 : ¬t.val % 4 = 0 := by omega
  rw [fst_C m c t h0 h3, ← outsAt_snd m c t.val t.isLt, snd_C m c t h0 h3]

end Cert.KernelIdeal.Acc

end
-- ==== Proof.KernelPay.lean ====
import proofs.«131205_j6511170421195_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx

namespace Cert.KernelIdeal.Pay

/-- The dimension numbers of the body's product: both operands contracted along their axis 1. -/
abbrev dotD : DotDims S1024x1024 S2048x1024 S1024x2048 := dot_S1024x1024_S2048x1024_S1024x2048_1_1_0_0_n_n

/-- The left operand's index at output (r, q) and contraction coordinate l is (r, l). -/
theorem lhsIdx_eq (r : Fin 1024) (q : Fin 2048) (l : Fin 1024) :
    dotD.lhsIdx (ix2 r q) ((contrEquiv1 dotD 1024 rfl rfl).symm l) = ix2 r l := by
  funext ax; apply Fin.ext
  match ax with
  | ⟨0, _⟩ => simp [DotDims.lhsIdx, dotD, dot_S1024x1024_S2048x1024_S1024x2048_1_1_0_0_n_n]; rfl
  | ⟨1, _⟩ =>
    exact (DotDims.lhsIdx_val_of_single (d := dotD) (cl := 1) rfl (ix2 r q) _).trans
      (contrEquiv1_symm_val dotD 1024 rfl rfl l)

/-- The right operand's index at output (r, q) and contraction coordinate l is (q, l): the right operand is not
    transposed, its rows are the output's columns. -/
theorem rhsIdx_eq (r : Fin 1024) (q : Fin 2048) (l : Fin 1024) :
    dotD.rhsIdx (ix2 r q) ((contrEquiv1 dotD 1024 rfl rfl).symm l) = ix2 q l := by
  funext ax; apply Fin.ext
  match ax with
  | ⟨0, _⟩ => simp [DotDims.rhsIdx, dotD, dot_S1024x1024_S2048x1024_S1024x2048_1_1_0_0_n_n]; rfl
  | ⟨1, _⟩ =>
    exact (DotDims.rhsIdx_val_of_single (d := dotD) (cr := 1) rfl (ix2 r q) _).trans
      (contrEquiv1_symm_val dotD 1024 rfl rfl l)

/-- The product into the zero block, at (r, q): the sum over the contracted coordinate of a(r, l) · b(q, l). -/
theorem matmul_zero_apply (a : FVec Ideal S1024x1024 .bf16) (b : FVec Ideal S2048x1024 .bf16) (r : Fin 1024) (q : Fin 2048) :
    FloatOps.matmul dotD none a b (constant (F := Ideal) S1024x2048 .f32 0x00000000#32) (ix2 r q)
      = ∑ l : Fin 1024, a (ix2 r l) * b (ix2 q l) := by
  refine (Ideal.matmul_constant_zero_apply dotD none a b (ix2 r q)).trans ?_
  rw [← Equiv.sum_comp (contrEquiv1 dotD 1024 rfl rfl).symm]
  refine Finset.sum_congr rfl fun l _ => ?_
  rw [lhsIdx_eq, rhsIdx_eq]

/-- The accumulating payload at (r, q): the accumulator there plus the block product's element. -/
theorem pay2_apply (acc : Vec Ideal S1024x2048 .f32) (a : Vec Ideal S1024x1024 .bf16) (b : Vec Ideal S2048x1024 .bf16)
    (r : Fin 1024) (q : Fin 2048) :
    k0_pay2 (F := Ideal) acc a b (ix2 r q) = acc (ix2 r q) + ∑ l : Fin 1024, a (ix2 r l) * b (ix2 q l) := by
  unfold k0_pay2
  simp only [shapeCast_self]
  exact congrArg (acc (ix2 r q) + ·) (matmul_zero_apply a b r q)

/-- The reset payload at (r, q): the zero of the extended reals (the literal's word is +0). -/
theorem pay1_apply (r : Fin 1024) (q : Fin 2048) : (k0_pay1 (F := Ideal)) (ix2 r q) = (0 : EReal) := by
  unfold k0_pay1
  simp only [shapeCast_self]
  exact Ideal.ofBits_zero_f32

/-- The final payload at (r, q): the accumulator there plus the bias row's entry of column q (the one row is read
    at every row of the block). -/
theorem pay3_apply (acc : Vec Ideal S1024x2048 .f32) (bias : Vec Ideal S1x2048 .f32) (r : Fin 1024) (q : Fin 2048) :
    k0_pay3 (F := Ideal) acc bias (ix2 r q) = acc (ix2 r q) + bias (ix2 (0 : Fin 1) q) := by
  unfold k0_pay3
  simp only [shapeCast_self]
  exact congrArg (acc (ix2 r q) + ·) (broadcastTo_1b_ab_apply bias broadcasts_S1x2048_S1024x2048 r q)

end Cert.KernelIdeal.Pay

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.KernelIdx.lean ====
/-
  The accumulator read at an index, over the extended reals.

  Point n of the grid (8, 2, 4) has row block n / 8, column block (n / 4) mod 2 and K-block n mod 4.  Its lhs block
  is rows (n/8)·1024 … of the flattened activations A [8192, 4096] restricted to columns (n mod 4)·1024 …, its rhs
  block rows ((n/4) mod 2)·2048 … of the weights B [4096, 4096] over the same columns, its bias block columns
  ((n/4) mod 2)·2048 … of the bias row.  With  term R Q l = A(R, l) · B(Q, l)  the accumulator after point n, at (r, q),
  is the sum of the first (n mod 4) + 1 chunks of width 1024 of  l ↦ term R Q l,  R and Q the array row and column
  the block entry sits at; at the last point of a sweep that is the whole contraction over l < 4096.
-/
import proofs.«131205_j6511170421195_2_alg».proof.Proof.KernelAcc
import proofs.«131205_j6511170421195_2_alg».proof.Proof.KernelPay
import proofs.«131205_j6511170421195_2_alg».proof.Proof.LibChunkedSum
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.Acc

open Cert.KernelIdeal Cert.KernelIdeal.Gen Cert.Lib.ChunkedSum

variable (m : (ℓ : Loc nD τ sig) → Buf (Elt Ideal) ℓ)

/-- The printed index maps, decided once over the 64 grid points. -/
theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- An entry of the lhs block is the activations' entry at the block's offset. -/
theorem iblk0_apply (c : Dev nD) (t : Fin cfg0.N) (r l : Fin 1024) (R : Fin 8192) (L : Fin 4096)
    (hR : R.val = t.val / 8 * 1024 + r.val) (hL : L.val = t.val % 4 * 1024 + l.val) :
    (iblk m c 0 t : Vec Ideal S1024x1024 .bf16) (ix2 r l) = V m c main_v33 (ix2 R L) := by
  obtain ⟨e0, e1, -⟩ := idx_facts t
  unfold iblk
  rw [View.read_apply]
  show V m c main_v33 (((cfg0.win 0).blk t).view.emb (ix2 r l)) = V m c main_v33 (ix2 R L)
  refine congrArg _ ?_
  funext a; apply Fin.ext
  match a with
  | ⟨0, _⟩ => show win0_0.index t (0 : Fin 2) * 1024 + 1 * r.val = R.val; rw [e0, hR]; omega
  | ⟨1, _⟩ => show win0_0.index t (1 : Fin 2) * 1024 + 1 * l.val = L.val; rw [e1, hL]; omega

/-- An entry of the rhs block is the weights' entry at the block's offset. -/
theorem iblk1_apply (c : Dev nD) (t : Fin cfg0.N) (q : Fin 2048) (l : Fin 1024) (Q : Fin 4096) (L : Fin 4096)
    (hQ : Q.val = t.val / 4 % 2 * 2048 + q.val) (hL : L.val = t.val % 4 * 1024 + l.val) :
    (iblk m c 1 t : Vec Ideal S2048x1024 .bf16) (ix2 q l) = V m c main_v31 (ix2 Q L) := by
  obtain ⟨-, -, e0, e1, -⟩ := idx_facts t
  unfold iblk
  rw [View.read_apply]
  show V m c main_v31 (((cfg0.win 1).blk t).view.emb (ix2 q l)) = V m c main_v31 (ix2 Q L)
  refine congrArg _ ?_
  funext a; apply Fin.ext
  match a with
  | ⟨0, _⟩ => show win0_1.index t (0 : Fin 2) * 2048 + 1 * q.val = Q.val; rw [e0, hQ]; omega
  | ⟨1, _⟩ => show win0_1.index t (1 : Fin 2) * 1024 + 1 * l.val = L.val; rw [e1, hL]; omega

/-- An entry of the bias block is the bias row's entry at the block's offset. -/
theorem iblk2_apply (c : Dev nD) (t : Fin cfg0.N) (q : Fin 2048) (Q : Fin 4096)
    (hQ : Q.val = t.val / 4 % 2 * 2048 + q.val) :
    (iblk m c 2 t : Vec Ideal S1x2048 .f32) (ix2 (0 : Fin 1) q) = V m c main_v34 (ix2 (0 : Fin 1) Q) := by
  obtain ⟨-, -, -, -, e0, e1, -⟩ := idx_facts t
  unfold iblk
  rw [View.read_apply]
  show V m c main_v34 (((cfg0.win 2).blk t).view.emb (ix2 (0 : Fin 1) q)) = V m c main_v34 (ix2 (0 : Fin 1) Q)
  refine congrArg _ ?_
  funext a; apply Fin.ext
  match a with
  | ⟨0, _⟩ => show win0_2.index t (0 : Fin 2) * 1 + 1 * (0 : Fin 1).val = (0 : Fin 1).val; rw [e0]; simp
  | ⟨1, _⟩ => show win0_2.index t (1 : Fin 2) * 2048 + 1 * q.val = Q.val; rw [e1, hQ]; omega

/-- One product of the contraction, extended by zero past the axis. -/
def term (A : S8192x4096.Idx → EReal) (B : S4096x4096.Idx → EReal) (R : Fin 8192) (Q : Fin 4096) (l : ℕ) : EReal :=
  if h : l < 4096 then A (ix2 R ⟨l, h⟩) * B (ix2 Q ⟨l, h⟩) else 0

/-- The product of a point's two blocks at (r, q) is chunk (n mod 4) of the contraction at the entry's array position. -/
theorem block_dot (c : Dev nD) (t : Fin cfg0.N) (r : Fin 1024) (q : Fin 2048) (R : Fin 8192) (Q : Fin 4096)
    (hR : R.val = t.val / 8 * 1024 + r.val) (hQ : Q.val = t.val / 4 % 2 * 2048 + q.val)
    (a : Vec Ideal S1024x1024 .bf16) (b : Vec Ideal S2048x1024 .bf16) (ha : a = iblk m c 0 t) (hb : b = iblk m c 1 t) :
    (∑ l : Fin 1024, a (ix2 r l) * b (ix2 q l))
      = chunk 1024 (term (V m c main_v33) (V m c main_v31) R Q) (t.val % 4) := by
  subst ha hb
  unfold chunk
  refine Finset.sum_congr rfl fun l _ => ?_
  have hl : 1024 * (t.val % 4) + l.val < 4096 := by have := l.isLt; omega
  rw [iblk0_apply m c t r l R ⟨1024 * (t.val % 4) + l.val, hl⟩ hR (by show 1024 * (t.val % 4) + l.val = t.val % 4 * 1024 + l.val; omega),
    iblk1_apply m c t q l Q ⟨1024 * (t.val % 4) + l.val, hl⟩ hQ (by show 1024 * (t.val % 4) + l.val = t.val % 4 * 1024 + l.val; omega)]
  unfold term
  rw [dif_pos hl]

/-- THE ACCUMULATOR after point n, at (r, q): the first (n mod 4) + 1 chunks of the contraction. -/
theorem acc_apply (c : Dev nD) : ∀ (n : ℕ) (h : n < cfg0.N) (r : Fin 1024) (q : Fin 2048) (R : Fin 8192) (Q : Fin 4096)
    (hR : R.val = n / 8 * 1024 + r.val) (hQ : Q.val = n / 4 % 2 * 2048 + q.val),
    acc m c n h (ix2 r q)
      = ∑ p ∈ Finset.range (n % 4 + 1), chunk 1024 (term (V m c main_v33) (V m c main_v31) R Q) p
  | 0, h, r, q, R, Q, hR, hQ => by
    rw [acc_first m c 0 h rfl, Pay.pay2_apply, Pay.pay1_apply, zero_add, block_dot m c ⟨0, h⟩ r q R Q hR hQ _ _ rfl rfl]
    simp
  | n + 1, h, r, q, R, Q, hR, hQ => by
    by_cases h0 : (n + 1) % 4 = 0
    · rw [acc_first m c (n + 1) h h0, Pay.pay2_apply, Pay.pay1_apply, zero_add, block_dot m c ⟨n + 1, h⟩ r q R Q hR hQ _ _ rfl rfl]
      show chunk 1024 _ ((n + 1) % 4) = _
      rw [h0]; simp
    · rw [acc_next m c n h h0, Pay.pay2_apply, block_dot m c ⟨n + 1, h⟩ r q R Q hR hQ _ _ rfl rfl,
        acc_apply c n (Nat.lt_of_succ_lt h) r q R Q (by omega) (by omega)]
      show _ + chunk 1024 _ ((n + 1) % 4) = _
      have e : (n + 1) % 4 = n % 4 + 1 := by omega
      rw [e, Finset.sum_range_succ _ (n % 4 + 1)]

end Cert.KernelIdeal.Acc

end
-- ==== Proof.HostTerms.lean ====
/-
  The two programs' host-side weight preprocessing, each as ONE pure term of the weight array at the
  ideal instance, spelt with the printed operations in the printed order.

  Kernel side (sums first): mean μ = (∑ w) / n, variance ((∑ w²) − μ·μ·n) / (n − 1) with n − 1 a literal,
  σ = √variance, the outlier mask (w < μ − 1.6σ) ∨ (w > μ + 1.6σ), the kept indicator as a float,
  scale = (∑ |w|·kept) / (∑ kept), and the simulated weight  mask ? w·1 : sign w · scale  (then a format change).

  Reference side (centred): the same mean, variance (∑ (w − μ)²) / (n − 1₍ᵢ₃₂₎) selected against a positivity test
  of the divisor, the same mask, the kept count summed as 32-bit integers and converted, and the sign through the
  straight-through spelling  w + (sign w − w).
-/
import proofs.«131205_j6511170421195_2_alg».proof.KernelIdeal
import proofs.«131205_j6511170421195_2_alg».proof.ReferenceIdeal
import Idealize.ShloMosaic.PureOps.Ideal

noncomputable section

open Idealize.ShloMosaic

namespace Cert.Bridge

/-! ## Kernel side -/
section Kernel
open Cert.KernelIdeal Cert.KernelIdeal.Facts₀
variable [Cert.KernelIdeal.Facts]

/-- ∑ w over the whole array, from zero. -/
def kSum (w : FVec Ideal S4096x4096 .f32) : FVec Ideal S_ .f32 :=
  Host.reduceAdd (F := Ideal) w (constant (F := Ideal) S_ .f32 0x00000000#32) reducesTo_S4096x4096_S_d0_1 h_S_

/-- The mean: the sum over the literal n = 2^24. -/
def kMean (w : FVec Ideal S4096x4096 .f32) : FVec Ideal S_ .f32 :=
  Host.divf (F := Ideal) (kSum w) (constant (F := Ideal) S_ .f32 0x4B800000#32)

/-- ∑ w² from zero. -/
def kSumSq (w : FVec Ideal S4096x4096 .f32) : FVec Ideal S_ .f32 :=
  Host.reduceAdd (F := Ideal) (mulf w w) (constant (F := Ideal) S_ .f32 0x00000000#32) reducesTo_S4096x4096_S_d0_1 h_S_

/-- The variance, sums-first: ((∑ w²) − μ·μ·n) / (n − 1). -/
def kVar (w : FVec Ideal S4096x4096 .f32) : FVec Ideal S_ .f32 :=
  Host.divf (F := Ideal)
    (subf (kSumSq w) (mulf (mulf (kMean w) (kMean w)) (constant (F := Ideal) S_ .f32 0x4B800000#32)))
    (constant (F := Ideal) S_ .f32 0x4B7FFFFF#32)

/-- σ. -/
def kStd (w : FVec Ideal S4096x4096 .f32) : FVec Ideal S_ .f32 := Host.sqrt (F := Ideal) (kVar w)

/-- The outlier mask from a mean and a deviation: (w < μ − 1.6σ) ∨ (w > μ + 1.6σ). -/
def kMaskOf (w : FVec Ideal S4096x4096 .f32) (μ σ : FVec Ideal S_ .f32) :=
  ori (cmpf .olt w (broadcastInDim S4096x4096 ![] bcast_S_S4096x4096 (subf μ (mulf (constant (F := Ideal) S_ .f32 0x3FCCCCCD#32) σ))))
      (cmpf .ogt w (broadcastInDim S4096x4096 ![] bcast_S_S4096x4096 (addf μ (mulf (constant (F := Ideal) S_ .f32 0x3FCCCCCD#32) σ))))

/-- The kernel's mask. -/
def kMask (w : FVec Ideal S4096x4096 .f32) := kMaskOf w (kMean w) (kStd w)

/-- The kept indicator as a float. -/
def kKeep (w : FVec Ideal S4096x4096 .f32) : FVec Ideal S4096x4096 .f32 := uitofp (F := Ideal) .f32 (noti (kMask w))

/-- scale = (∑ |w|·kept) / (∑ kept), both sums float sums. -/
def kScale (w : FVec Ideal S4096x4096 .f32) : FVec Ideal S_ .f32 :=
  Host.divf (F := Ideal)
    (Host.reduceAdd (F := Ideal) (mulf (Host.absf (F := Ideal) w) (kKeep w)) (constant (F := Ideal) S_ .f32 0x00000000#32) reducesTo_S4096x4096_S_d0_1 h_S_)
    (Host.reduceAdd (F := Ideal) (kKeep w) (constant (F := Ideal) S_ .f32 0x00000000#32) reducesTo_S4096x4096_S_d0_1 h_S_)

/-- The simulated weight before the format change: mask ? w·1 : sign w · scale. -/
def kSim (w : FVec Ideal S4096x4096 .f32) : FVec Ideal S4096x4096 .f32 :=
  select (kMask w)
    (mulf w (broadcastInDim S4096x4096 ![] bcast_S_S4096x4096 (constant (F := Ideal) S_ .f32 0x3F800000#32)))
    (mulf (Host.sign (F := Ideal) w) (broadcastInDim S4096x4096 ![] bcast_S_S4096x4096 (kScale w)))

/-- The weight operand of the kernel's call (after the change to the narrow format). -/
def kW (w : FVec Ideal S4096x4096 .f32) : FVec Ideal S4096x4096 .bf16 :=
  truncf (F := Ideal) .bf16 (kSim w) bitsLt_bf16_f32

end Kernel

/-! ## Reference side -/
section Reference
open Cert.ReferenceIdeal Cert.ReferenceIdeal.Facts₀
variable [Cert.ReferenceIdeal.Facts]

/-- ∑ w from zero. -/
def rSum (w : FVec Ideal S4096x4096 .f32) : FVec Ideal S_ .f32 :=
  Host.reduceAdd (F := Ideal) w (constant (F := Ideal) S_ .f32 0x00000000#32) reducesTo_S4096x4096_S_d0_1 h_S_

/-- The mean. -/
def rMean (w : FVec Ideal S4096x4096 .f32) : FVec Ideal S_ .f32 :=
  Host.divf (F := Ideal) (rSum w) (constant (F := Ideal) S_ .f32 0x4B800000#32)

/-- The divisor n − 1, the 1 converted from a 32-bit integer. -/
def rDen : FVec Ideal S_ .f32 :=
  subf (constant (F := Ideal) S_ .f32 0x4B800000#32) (sitofp (F := Ideal) .f32 (constantI S_ 32 1#32))

/-- The centred squares (w − μ')², μ' the mean recomputed as a [1,1] array and broadcast. -/
def rCentSq (w : FVec Ideal S4096x4096 .f32) : FVec Ideal S4096x4096 .f32 :=
  let d := subf w (broadcastInDim S4096x4096 ![0, 1] bcast_S1x1_S4096x4096_0_1
    (Host.divf (F := Ideal) (broadcastInDim S1x1 ![] bcast_S_S1x1 (rSum w))
      (broadcastInDim S1x1 ![] bcast_S_S1x1 (constant (F := Ideal) S_ .f32 0x4B800000#32))))
  mulf d d

/-- The variance, centred, selected against the divisor's positivity (the other branch a NaN pattern). -/
def rVar (w : FVec Ideal S4096x4096 .f32) : FVec Ideal S_ .f32 :=
  select (cmpf .ogt rDen (constant (F := Ideal) S_ .f32 0x00000000#32))
    (Host.divf (F := Ideal)
      (Host.reduceAdd (F := Ideal) (rCentSq w) (constant (F := Ideal) S_ .f32 0x00000000#32) reducesTo_S4096x4096_S_d0_1 h_S_)
      rDen)
    (id (constant (F := Ideal) S_ .f32 0x7FC00000#32))

/-- σ. -/
def rStd (w : FVec Ideal S4096x4096 .f32) : FVec Ideal S_ .f32 := Host.sqrt (F := Ideal) (rVar w)

/-- The outlier mask from a mean and a deviation. -/
def rMaskOf (w : FVec Ideal S4096x4096 .f32) (μ σ : FVec Ideal S_ .f32) :=
  ori (cmpf .olt w (broadcastInDim S4096x4096 ![] bcast_S_S4096x4096 (subf μ (mulf (constant (F := Ideal) S_ .f32 0x3FCCCCCD#32) σ))))
      (cmpf .ogt w (broadcastInDim S4096x4096 ![] bcast_S_S4096x4096 (addf μ (mulf (constant (F := Ideal) S_ .f32 0x3FCCCCCD#32) σ))))

/-- The reference's mask. -/
def rMask (w : FVec Ideal S4096x4096 .f32) := rMaskOf w (rMean w) (rStd w)

/-- scale = (∑ |w|·kept) / (count of kept), the count summed as 32-bit integers and converted. -/
def rScale (w : FVec Ideal S4096x4096 .f32) : FVec Ideal S_ .f32 :=
  Host.divf (F := Ideal)
    (Host.reduceAdd (F := Ideal) (mulf (Host.absf (F := Ideal) w) (uitofp (F := Ideal) .f32 (noti (rMask w))))
      (constant (F := Ideal) S_ .f32 0x00000000#32) reducesTo_S4096x4096_S_d0_1 h_S_)
    (sitofp (F := Ideal) .f32
      (Host.reduce IntOp.addi (extui 32 (noti (rMask w)) natLt_1_32) (constantI S_ 32 0#32) reducesTo_S4096x4096_S_d0_1 h_S_))

/-- The simulated weight: mask ? w·1 : (w + (sign w − w)) · scale. -/
def rW (w : FVec Ideal S4096x4096 .f32) : FVec Ideal S4096x4096 .f32 :=
  select (rMask w)
    (mulf w (broadcastInDim S4096x4096 ![] bcast_S_S4096x4096 (constant (F := Ideal) S_ .f32 0x3F800000#32)))
    (mulf (addf w (subf (Host.sign (F := Ideal) w) w)) (broadcastInDim S4096x4096 ![] bcast_S_S4096x4096 (rScale w)))

end Reference

end Cert.Bridge

end
-- ==== Proof.OutTerms.lean ====
/-
  The two programs' products as pure terms.

  Kernel side: with A the activations flattened to [8192, 4096], B the simulated weight [4096, 4096] and β the bias as
  a row [1, 4096], the call's result array is  G A B β (R, Q) = ∑_{i < 4096} A(R, i) · B(Q, i) + β(0, Q)  (both operands
  contracted along their second axis), and the program's result is that array regrouped to [4, 2048, 4096].
  Reference side: the host's general product contracting x's last axis with W's second, plus the bias broadcast
  along the last axis.
-/
import proofs.«131205_j6511170421195_2_alg».proof.Proof.HostTerms
import Idealize.ShloMosaic.Lib.ValueIdx

noncomputable section

open Idealize.ShloMosaic Idealize.ShloMosaic.ValueIdx
open scoped BigOperators

namespace Cert.KernelIdeal.Out

open Cert.KernelIdeal Cert.KernelIdeal.Facts₀

/-- Product plus bias, as one function of the three arrays. -/
def G (A : S8192x4096.Idx → EReal) (B : S4096x4096.Idx → EReal) (β : S1x4096.Idx → EReal) : S8192x4096.Idx → EReal :=
  fun I => (∑ i : Fin 4096, A (ix2 (⟨(I 0).val, idx2_lt0 I⟩ : Fin 8192) i) * B (ix2 (⟨(I 1).val, idx2_lt1 I⟩ : Fin 4096) i))
    + β (ix2 (0 : Fin 1) (⟨(I 1).val, idx2_lt1 I⟩ : Fin 4096))

theorem G_apply (A : S8192x4096.Idx → EReal) (B : S4096x4096.Idx → EReal) (β : S1x4096.Idx → EReal) (R : Fin 8192) (Q : Fin 4096) :
    G A B β (ix2 R Q) = (∑ i : Fin 4096, A (ix2 R i) * B (ix2 Q i)) + β (ix2 (0 : Fin 1) Q) := rfl

/-- The kernel program's result as a function of its three arguments: flatten and narrow x, preprocess w, make the
    bias a row, product plus bias, regroup. -/
def kOut [Cert.KernelIdeal.Facts] (x : FVec Ideal S4x2048x4096 .f32) (w : FVec Ideal S4096x4096 .f32) (b : FVec Ideal S4096 .f32) :
    FVec Ideal S4x2048x4096 .f32 :=
  shapeCast S4x2048x4096
    (G (truncf (F := Ideal) .bf16 (shapeCast S8192x4096 x shapeCasts_S4x2048x4096_S8192x4096) bitsLt_bf16_f32)
       (Cert.Bridge.kW w)
       (shapeCast S1x4096 b shapeCasts_S4096_S1x4096))
    shapeCasts_S8192x4096_S4x2048x4096

end Cert.KernelIdeal.Out

namespace Cert.ReferenceIdeal.RefRun

open Cert.ReferenceIdeal Cert.ReferenceIdeal.Facts₀

/-- The product and the bias: x's last axis contracted with W's second, plus the bias broadcast along the last axis. -/
def rOut [Cert.ReferenceIdeal.Facts] (x : FVec Ideal S4x2048x4096 .f32) (W : FVec Ideal S4096x4096 .f32) (b : FVec Ideal S4096 .f32) :
    FVec Ideal S4x2048x4096 .f32 :=
  addf (Host.dotGeneral (F := Ideal) dot_S4x2048x4096_S4096x4096_S4x2048x4096_2_1_01_0_n_n none x W)
    (broadcastInDim S4x2048x4096 ![0, 1, 2] bcast_S1x1x4096_S4x2048x4096_0_1_2 (broadcastInDim S1x1x4096 ![2] bcast_S4096_S1x1x4096_2 b))

end Cert.ReferenceIdeal.RefRun

end
-- ==== Proof.KernelFinal.lean ====
/-
  The call's result array, and the program's result.

  Output block (i, j) of the [8192, 4096] result is written back once, after the last point of its K-sweep, and the 16
  blocks tile the array; what is written is accumulator plus bias row, whose entry (r, q) is the whole contraction
  ∑_{l < 4096} A(R, l)·B(Q, l) + β(0, Q) at the entry's array position (R, Q) = (i·1024 + r, j·2048 + q): the four
  chunks of width 1024 tile the contraction axis.  So the array ends at G A B β; the one host operation after the call
  regroups it to [4, 2048, 4096].
-/
import proofs.«131205_j6511170421195_2_alg».proof.Proof.KernelIdx
import proofs.«131205_j6511170421195_2_alg».proof.Proof.OutTerms
import Idealize.ShloMosaic.Lib.StableHlo.Run

noncomputable section

open Idealize.ShloMosaic Idealize.ShloMosaic.TcCoe Idealize.SL.Sem
open Idealize.ShloMosaic.Pipeline (Dat)
open Idealize.ShloMosaic.ValueIdx
open scoped BigOperators

namespace Cert.KernelIdeal.Acc

open Cert.KernelIdeal Cert.KernelIdeal.Gen Cert.KernelIdeal.Out Cert.Lib.ChunkedSum

variable (m : (ℓ : Loc nD τ sig) → Buf (Elt Ideal) ℓ) (ρ : Dev nD → PrngReg)

/-- The result array's final contents: product plus bias of the three operand arrays as the call finds them. -/
abbrev outArr (c : Dev nD) : Buf (Elt Ideal) ((c : Thread nD τ).loc main_v35) :=
  G (V m c main_v33) (V m c main_v31) (V m c main_v34)

/-- What a flushing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  have hN : t.val < 64 := lt_of_lt_of_eq t.isLt (show cfg0.N = 64 from N_0)
  obtain ⟨-, -, -, -, -, -, e0, e1⟩ := idx_facts t
  show (cfg0.win 3).cut (grid0.coords t) ((dats m 0 c).after 3 t) = _
  rw [after0_3, outsAt_fst m c t h3]
  funext j
  obtain ⟨r, q, rfl⟩ : ∃ (r : Fin 1024) (q : Fin 2048), j = ix2 r q := ⟨j 0, j 1, eq_ix2 j⟩
  have hR : t.val / 8 * 1024 + r.val < 8192 := by have := r.isLt; omega
  have hQ : t.val / 4 % 2 * 2048 + q.val < 4096 := by have := q.isLt; omega
  show k0_pay3 (acc m c t.val t.isLt) (iblk m c 2 t) (ix2 r q) = outArr m c (((cfg0.win 3).blk t).view.emb (ix2 r q))
  have hemb : ((cfg0.win 3).blk t).view.emb (ix2 r q) = ix2 (⟨_, hR⟩ : Fin 8192) (⟨_, hQ⟩ : Fin 4096) := by
    funext a; apply Fin.ext
    match a with
    | ⟨0, _⟩ => show win0_3.index t (0 : Fin 2) * 1024 + 1 * r.val = t.val / 8 * 1024 + r.val; rw [e0]; omega
    | ⟨1, _⟩ => show win0_3.index t (1 : Fin 2) * 2048 + 1 * q.val = t.val / 4 % 2 * 2048 + q.val; rw [e1]; omega
  rw [hemb]
  show _ = G _ _ _ (ix2 _ _)
  rw [G_apply, Pay.pay3_apply, acc_apply m c t.val t.isLt r q ⟨_, hR⟩ ⟨_, hQ⟩ rfl rfl, iblk2_apply m c t q ⟨_, hQ⟩ rfl, h3]
  refine congrArg (· + _) ?_
  rw [show (3 + 1 : ℕ) = 4 from rfl, sum_chunks 4 1024]
  show ∑ j : Fin 4096, _ = _
  refine Finset.sum_congr rfl fun i _ => ?_
  unfold term; rw [dif_pos i.isLt]

/-- An index is in a point's output block iff each coordinate is in the block's range. -/
theorem mem_blk (t : Fin cfg0.N) (I : S8192x4096.Idx) :
    I ∈ ((cfg0.win 3).blk t).view.set ↔ ∀ a : Fin 2, win0_3.index t a * S1024x2048.size a ≤ (I a).val
      ∧ (I a).val < win0_3.index t a * S1024x2048.size a + S1024x2048.size a := by
  show I ∈ ((View.whole main_v35).slice (win0_3.rect t)).set ↔ _
  rw [View.set_slice_whole, Rect.mem_set_unit]
  exact Iff.rfl

/-- Every index of the result array is in the block of the last point of some sweep. -/
theorem cover (I : S8192x4096.Idx) :
    ∃ t : Fin cfg0.N, (cfg0.win 3).flush t = true ∧ I ∈ ((cfg0.win 3).blk t).view.set := by
  have h0 : (I 0).val < 8192 := idx2_lt0 I
  have h1 : (I 1).val < 4096 := idx2_lt1 I
  have hN : cfg0.N = 64 := N_0
  have hlt : (I 0).val / 1024 * 8 + (I 1).val / 2048 * 4 + 3 < cfg0.N := by rw [hN]; omega
  obtain ⟨t, ht⟩ : ∃ t : Fin cfg0.N, t.val = (I 0).val / 1024 * 8 + (I 1).val / 2048 * 4 + 3 := ⟨⟨_, hlt⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1024 ≤ (I 0).val ∧ (I 0).val < win0_3.index t (0 : Fin 2) * 1024 + 1024
    rw [e0]; omega
  | ⟨1, _⟩ =>
    show win0_3.index t (1 : Fin 2) * 2048 ≤ (I 1).val ∧ (I 1).val < win0_3.index t (1 : Fin 2) * 2048 + 2048
    rw [e1]; omega

/-- So the result array ends at product plus bias. -/
theorem final (c : Dev nD) : (dats m 0 c).arrAt 3 cfg0.N = outArr m c :=
  (dats m 0 c).arrAt_eq_of_cover 3 (outArr m c) (flushed_eq m c) (fun I => cover I)

/-- The host operation after the call regroups that array. -/
theorem tail_eq (c : Dev nD) :
    Pipeline.afterTail₀ cfgs (dats m) 0 (V0 m) [hostOps1] c main_v36
      = shapeCast S4x2048x4096 (outArr m c) shapeCasts_S8192x4096_S4x2048x4096 := by
  unfold Pipeline.afterTail₀
  show StableHlo.after hostOps1 _ (Proc.devRef .tc main_v36) = _
  after_results
  have e : Pipeline.withArrays (cfgs 0).spec c (V0 m c) (fun w => (dats m 0 c).arrAt w (cfgs 0).N) (Proc.tc.devRef main_v35)
      = outArr m c :=
    (Pipeline.withArrays_arr spec0 launch0.win.arr_inj c _ _ 3).trans (final m c)
  rw [e]
  rfl

/-- THE RUN, read: the program's result at the regrouped product-plus-bias array, the arguments unchanged. -/
theorem run : θ_run defs (onTc (τ := τ) (main (F := Ideal))) ⟨m, fun _ => 0, ρ⟩ fun r => ∀ c : Dev nD,
      r.2.mem ((c.tc : Thread nD τ).loc main_v36) = shapeCast S4x2048x4096 (outArr m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.KernelHost.lean ====
/-
  What the host operations that precede the kernel's call leave in the call's three operand arrays, at the
  ideal instance: the weight operand is the simulated weight of the launched weight array, changed to the narrow
  format; the activation operand is the launched activation array flattened to two axes and changed to the narrow
  format; the bias operand is the launched bias given a leading unit axis. Each is read off the fold of the host
  operations over the launch memory: an operation's result at its own buffer is its function of its operands'
  contents, and at any other buffer what was there.
-/
import proofs.«131205_j6511170421195_2_alg».proof.Proof.Gen.KernelIdeal.Frame
import proofs.«131205_j6511170421195_2_alg».proof.Proof.HostTerms
import Idealize.ShloMosaic.Lib.StableHlo.Run

noncomputable section

namespace Cert.KernelIdeal.HostPre

open Cert.KernelIdeal Cert.KernelIdeal.Gen Idealize.ShloMosaic Idealize.ShloMosaic.StableHlo Idealize.SL.Sem

variable (m : (ℓ : Loc nD τ sig) → Buf (Elt Ideal) ℓ) (c : Dev nD)

/-- The bias operand: the launched bias with a leading unit axis. -/
theorem V_v34 : V m c main_v34 = shapeCast S1x4096 (m ((c.tc : Thread nD τ).loc main_arg2)) Gen.shapeCasts_S4096_S1x4096 := by
  dsimp only [Gen.V, Gen.V0]
  simp only [Gen.hostOps0, Gen.hostOps0_1, Gen.hostOps0_2, List.flatten_cons, List.flatten_nil, List.append_nil, List.cons_append,
    List.nil_append]
  after_results_simp
  rfl

/-- The activation operand: the launched activations flattened to [8192, 4096], in the narrow format. -/
theorem V_v33 : V m c main_v33
    = truncf (F := Ideal) .bf16 (shapeCast S8192x4096 (m ((c.tc : Thread nD τ).loc main_arg0)) Gen.shapeCasts_S4x2048x4096_S8192x4096)
        Gen.bitsLt_bf16_f32 := by
  dsimp only [Gen.V, Gen.V0]
  simp only [Gen.hostOps0, Gen.hostOps0_1, Gen.hostOps0_2, List.flatten_cons, List.flatten_nil, List.append_nil, List.cons_append,
    List.nil_append]
  after_results_simp
  rfl

/-- The weight operand: the simulated weight of the launched weight array, in the narrow format. The fold's
    term at this buffer is the printed chain of operations on the weight array; the casts along the outlined
    selection's typed references are identities, and the chain is the simulated weight's definition unfolded. -/
theorem V_v31 : V m c main_v31 = Cert.Bridge.kW (m ((c.tc : Thread nD τ).loc main_arg1)) := by
  dsimp only [Gen.V, Gen.V0]
  simp only [Gen.hostOps0, Gen.hostOps0_1, Gen.hostOps0_2, List.flatten_cons, List.flatten_nil, List.append_nil, List.cons_append,
    List.nil_append]
  after_results_simp
  simp only [StableHlo.TRef.toBuf, StableHlo.TRef.ofBuf, cast_eq]
  change _ = Cert.Bridge.kW (m (c, Proc.devRef .tc main_arg1))
  generalize m (c, Proc.devRef .tc main_arg1) = w
  simp only [Bridge.kW, Bridge.kSim, Bridge.kScale, Bridge.kKeep, Bridge.kMask, Bridge.kMaskOf, Bridge.kStd, Bridge.kVar,
    Bridge.kSumSq, Bridge.kMean, Bridge.kSum]

end Cert.KernelIdeal.HostPre

end
-- ==== Proof.KernelRun.lean ====
/-
  The kernel program's run as a function of its arguments.

  The call finds its three operand arrays at what the host operations before it computed: the activations flattened
  and narrowed, the simulated weight, the bias as a row.  So the program's result is  kOut x w b : flatten, preprocess,
  product plus bias, regroup.
-/
import proofs.«131205_j6511170421195_2_alg».proof.Proof.KernelFinal
import proofs.«131205_j6511170421195_2_alg».proof.Proof.KernelHost

noncomputable section

open Idealize.ShloMosaic Idealize.ShloMosaic.TcCoe Idealize.SL.Sem

namespace Cert.KernelIdeal.Acc

open Cert.KernelIdeal Cert.KernelIdeal.Gen Cert.KernelIdeal.Out

variable (m : (ℓ : Loc nD τ sig) → Buf (Elt Ideal) ℓ) (ρ : Dev nD → PrngReg)

/-- The regrouped result array is kOut of the arguments. -/
theorem out_eq (c : Dev nD) :
    shapeCast S4x2048x4096 (outArr m c) Facts₀.shapeCasts_S8192x4096_S4x2048x4096
      = kOut (m ((c.tc : Thread nD τ).loc main_arg0)) (m ((c.tc : Thread nD τ).loc main_arg1)) (m ((c.tc : Thread nD τ).loc main_arg2)) := by
  unfold outArr kOut
  rw [Cert.KernelIdeal.HostPre.V_v31, Cert.KernelIdeal.HostPre.V_v33, Cert.KernelIdeal.HostPre.V_v34]

/-- THE RUN: the program's result at kOut of the arguments, the arguments unchanged. -/
theorem run_kOut : θ_run defs (onTc (τ := τ) (main (F := Ideal))) ⟨m, fun _ => 0, ρ⟩ fun r => ∀ c : Dev nD,
      r.2.mem ((c.tc : Thread nD τ).loc main_v36)
        = kOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq m c), (h c).2⟩) (run m ρ)

end Cert.KernelIdeal.Acc

end
-- ==== Proof.RefLine.lean ====
/-
  The reference program as one straight line of array operations.

  The reference's entry function has forty-four lines, three of which call other functions (the deviation,
  which calls the variance, which calls a scalar selection; and the elementwise selection). With each called
  function's lines substituted at its call site the program is sixty-one operations in a row, each writing
  one array of its own; run in order from any starting contents, every array ends at the fold of the
  operations over those contents.
-/
import proofs.«131205_j6511170421195_2_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

section Line

variable {F : FTy → Type} [FloatOps F] [Cert.ReferenceIdeal.Facts]

/-- The sixty-one operations in order: five of the entry function (the sum, the mean, the integer one); the
    deviation's twenty-one (the variance's eighteen: the sum again, the mean as a 1×1 array and its broadcast,
    the centred squares, the divisor n − 1, the sum of squares over it, the divisor's positivity test, the
    not-a-number pattern; the scalar selection's two; the square root); the entry function's thirty (the two
    thresholds and the mask, the kept entries' absolute sum and count and their quotient, the sign through
    w + (sign w − w), the two branches); the elementwise selection; the product, the bias's two broadcasts,
    the sum. -/
abbrev ops : List (HloOp τ sig (Elt F)) :=
  [ nullary main_cst (constant S_ .f32 0x00000000#32),
    binary main_arg1 main_cst main_v0 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_0 (constant S_ .f32 0x4B800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    nullary main_c (constantI S_ 32 1#32),
    TRef.nullary main_call0.call0.cst (constant S_ .f32 0x00000000#32),
    TRef.binary (.of main_arg1) main_call0.call0.cst main_call0.call0.v0 (fun x v => Host.reduceAdd x v reducesTo_S4096x4096_S_d0_1 h_S_),
    TRef.unary main_call0.call0.v0 main_call0.call0.v1 (broadcastInDim S1x1 ![] bcast_S_S1x1),
    TRef.nullary main_call0.call0.cst_0 (constant S_ .f32 0x4B800000#32),
    TRef.unary main_call0.call0.cst_0 main_call0.call0.v2 (broadcastInDim S1x1 ![] bcast_S_S1x1),
    TRef.binary main_call0.call0.v1 main_call0.call0.v2 main_call0.call0.v3 Host.divf,
    TRef.unary main_call0.call0.v3 main_call0.call0.v4 (broadcastInDim S4096x4096 ![0, 1] bcast_S1x1_S4096x4096_0_1),
    TRef.binary (.of main_arg1) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x4B800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S4096x4096_S_d0_1 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_cst_1 (constant S_ .f32 0x3FCCCCCD#32),
    binary main_cst_1 main_v2 main_v3 (mulf : (⟨S_, .f32⟩ : BufTy).Contents (Elt F) → (⟨S_, .f32⟩ : BufTy).Contents (Elt F) → (⟨S_, .f32⟩ : BufTy).Contents (Elt F)),
    binary main_v1 main_v3 main_v4 (subf : (⟨S_, .f32⟩ : BufTy).Contents (Elt F) → (⟨S_, .f32⟩ : BufTy).Contents (Elt F) → (⟨S_, .f32⟩ : BufTy).Contents (Elt F)),
    nullary main_cst_2 (constant S_ .f32 0x3FCCCCCD#32),
    binary main_cst_2 main_v2 main_v5 (mulf : (⟨S_, .f32⟩ : BufTy).Contents (Elt F) → (⟨S_, .f32⟩ : BufTy).Contents (Elt F) → (⟨S_, .f32⟩ : BufTy).Contents (Elt F)),
    binary main_v1 main_v5 main_v6 (addf : (⟨S_, .f32⟩ : BufTy).Contents (Elt F) → (⟨S_, .f32⟩ : BufTy).Contents (Elt F) → (⟨S_, .f32⟩ : BufTy).Contents (Elt F)),
    unary main_v4 main_v7 (broadcastInDim S4096x4096 ![] bcast_S_S4096x4096 : (⟨S_, .f32⟩ : BufTy).Contents (Elt F) → (⟨S4096x4096, .f32⟩ : BufTy).Contents (Elt F)),
    binary main_arg1 main_v7 main_v8 (cmpf .olt : (⟨S4096x4096, .f32⟩ : BufTy).Contents (Elt F) → (⟨S4096x4096, .f32⟩ : BufTy).Contents (Elt F) → (⟨S4096x4096, .i1⟩ : BufTy).Contents (Elt F)),
    unary main_v6 main_v9 (broadcastInDim S4096x4096 ![] bcast_S_S4096x4096 : (⟨S_, .f32⟩ : BufTy).Contents (Elt F) → (⟨S4096x4096, .f32⟩ : BufTy).Contents (Elt F)),
    binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    binary main_v8 main_v10 main_v11 (ori : (⟨S4096x4096, .i1⟩ : BufTy).Contents (Elt F) → (⟨S4096x4096, .i1⟩ : BufTy).Contents (Elt F) → (⟨S4096x4096, .i1⟩ : BufTy).Contents (Elt F)),
    unary main_v11 main_v12 (noti : (⟨S4096x4096, .i1⟩ : BufTy).Contents (Elt F) → (⟨S4096x4096, .i1⟩ : BufTy).Contents (Elt F)),
    unary main_arg1 main_v13 (Host.absf : (⟨S4096x4096, .f32⟩ : BufTy).Contents (Elt F) → (⟨S4096x4096, .f32⟩ : BufTy).Contents (Elt F)),
    unary main_v12 main_v14 (uitofp .f32 : (⟨S4096x4096, .i1⟩ : BufTy).Contents (Elt F) → (⟨S4096x4096, .f32⟩ : BufTy).Contents (Elt F)),
    binary main_v13 main_v14 main_v15 (mulf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x00000000#32),
    binary main_v15 main_cst_3 main_v16 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    unary main_v12 main_v17 ((extui 32 · natLt_1_32) : (⟨S4096x4096, .i1⟩ : BufTy).Contents (Elt F) → (⟨S4096x4096, .i32⟩ : BufTy).Contents (Elt F)),
    nullary main_c_4 (constantI S_ 32 0#32),
    binary main_v17 main_c_4 main_v18 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    unary main_v18 main_v19 (sitofp .f32 : (⟨S_, .i32⟩ : BufTy).Contents (Elt F) → (⟨S_, .f32⟩ : BufTy).Contents (Elt F)),
    binary main_v16 main_v19 main_v20 (Host.divf : (⟨S_, .f32⟩ : BufTy).Contents (Elt F) → (⟨S_, .f32⟩ : BufTy).Contents (Elt F) → (⟨S_, .f32⟩ : BufTy).Contents (Elt F)),
    unary main_arg1 main_v21 (Host.sign : (⟨S4096x4096, .f32⟩ : BufTy).Contents (Elt F) → (⟨S4096x4096, .f32⟩ : BufTy).Contents (Elt F)),
    binary main_v21 main_arg1 main_v22 (subf : (⟨S4096x4096, .f32⟩ : BufTy).Contents (Elt F) → (⟨S4096x4096, .f32⟩ : BufTy).Contents (Elt F) → (⟨S4096x4096, .f32⟩ : BufTy).Contents (Elt F)),
    binary main_arg1 main_v22 main_v23 (addf : (⟨S4096x4096, .f32⟩ : BufTy).Contents (Elt F) → (⟨S4096x4096, .f32⟩ : BufTy).Contents (Elt F) → (⟨S4096x4096, .f32⟩ : BufTy).Contents (Elt F)),
    unary main_v20 main_v24 (broadcastInDim S4096x4096 ![] bcast_S_S4096x4096 : (⟨S_, .f32⟩ : BufTy).Contents (Elt F) → (⟨S4096x4096, .f32⟩ : BufTy).Contents (Elt F)),
    binary main_v23 main_v24 main_v25 (mulf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3F800000#32),
    unary main_cst_5 main_v26 (broadcastInDim S4096x4096 ![] bcast_S_S4096x4096 : (⟨S_, .f32⟩ : BufTy).Contents (Elt F) → (⟨S4096x4096, .f32⟩ : BufTy).Contents (Elt F)),
    binary main_arg1 main_v26 main_v27 (mulf : (⟨S4096x4096, .f32⟩ : BufTy).Contents (Elt F) → (⟨S4096x4096, .f32⟩ : BufTy).Contents (Elt F) → (⟨S4096x4096, .f32⟩ : BufTy).Contents (Elt F)),
    TRef.ternary (.of main_v11) (.of main_v27) (.of main_v25) main_call1.v0 select,
    binary main_arg0 main_v28 main_v29 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v30 (broadcastInDim S1x1x4096 ![2] bcast_S4096_S1x1x4096_2 : (⟨S4096, .f32⟩ : BufTy).Contents (Elt F) → (⟨S1x1x4096, .f32⟩ : BufTy).Contents (Elt F)),
    unary main_v30 main_v31 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v29 main_v31 main_v32 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 2048 in
/-- The entry function is that straight line: the called functions' definitions substituted at their calls,
    both sides are one chain of steps once sequencing is reassociated. -/
theorem main_eq (c : Dev nD) : main (F := F) c = seq ops := by
  simp only [main, fn_std.body, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., binary_bufs_sub .., nullary_bufs_sub .., binary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., binary_bufs_sub .., unary_bufs_sub .., nullary_bufs_sub .., binary_bufs_sub .., unary_bufs_sub .., binary_bufs_sub .., unary_bufs_sub .., binary_bufs_sub .., binary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-- From any memory with zero counters, every weakly fair execution of the entry function terminates, and every
    array ends at the operations' fold over the starting contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

end Cert.ReferenceIdeal.RefRun

end
-- ==== Proof.RefRun.lean ====
/-
  The reference program run to its end, at the ideal instance.

  The reference is a straight line of sixty-one array operations (the module this one imports lists them, the
  called functions' lines substituted at their call sites), each writing one array of its own, so after the
  run every array holds the composition of the operations that lead to it. Read at the last array this
  composition is
      out[b,s,o] = ∑ᵢ x[b,s,i] · W[o,i] + bias[o],
  with W the simulated weight of the starting weight array: the weight itself where it is an outlier (further
  than 1.6 deviations from the mean), and elsewhere its sign times the mean absolute value of the kept
  entries. The three argument arrays are never written, so they end as they started.
-/
import proofs.«131205_j6511170421195_2_alg».proof.Proof.RefLine
import proofs.«131205_j6511170421195_2_alg».proof.Proof.OutTerms

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable [Cert.ReferenceIdeal.Facts]

/-- The fold read at the last array is the product-plus-bias of the starting x, the simulated weight of the
    starting w, and the starting bias. Each operation's result is its function's value at its own array and
    what was there at any other, which turns the fold into the composed term; a called function's value is
    carried through a change of type that is the identity (its array's type is the value's own); and the
    composed term is, operation for operation, the simulated weight's definition followed by the product and
    the bias. No sum, product or root is ever opened. -/
theorem out_eq (V : Valuation τ sig (Elt Ideal)) :
    after (ops (F := Ideal)) V (main_v32 : DevRef τ sig)
      = rOut (V (main_arg0 : DevRef τ sig)) (Cert.Bridge.rW (V (main_arg1 : DevRef τ sig))) (V (main_arg2 : DevRef τ sig)) := by
  after_results_simp
  simp only [TRef.toBuf, TRef.ofBuf, cast_eq]
  simp only [rOut, Cert.Bridge.rW, Cert.Bridge.rMask, Cert.Bridge.rMaskOf, Cert.Bridge.rScale, Cert.Bridge.rStd,
    Cert.Bridge.rVar, Cert.Bridge.rCentSq, Cert.Bridge.rDen, Cert.Bridge.rMean, Cert.Bridge.rSum]

/-- No operation writes x. -/
theorem arg0_eq (V : Valuation τ sig (Elt Ideal)) :
    after (ops (F := Ideal)) V (main_arg0 : DevRef τ sig) = V (main_arg0 : DevRef τ sig) := by
  after_results_simp

/-- No operation writes w. -/
theorem arg1_eq (V : Valuation τ sig (Elt Ideal)) :
    after (ops (F := Ideal)) V (main_arg1 : DevRef τ sig) = V (main_arg1 : DevRef τ sig) := by
  after_results_simp

/-- No operation writes the bias. -/
theorem arg2_eq (V : Valuation τ sig (Elt Ideal)) :
    after (ops (F := Ideal)) V (main_arg2 : DevRef τ sig) = V (main_arg2 : DevRef τ sig) := by
  after_results_simp

/-- The reference's run: every weakly fair execution terminates with the last array at the product-plus-bias of
    x, the simulated weight and the bias, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = rOut (m ((c.tc : Thread nD τ).loc main_arg0)) (Cert.Bridge.rW (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c main_v32).trans (out_eq _), (h c main_arg0).trans (arg0_eq _),
      (h c main_arg1).trans (arg1_eq _), (h c main_arg2).trans (arg2_eq _)⟩)
    (run_main (F := Ideal) m ρ)

end Cert.ReferenceIdeal.RefRun

end
-- ==== Proof.Weights.lean ====
/-
  The two simulated weights agree index by index, given that the two means and the two standard deviations agree,
  and the weight is finite under the precondition.

  The mask is one printed term of (mean, deviation) on both sides. The two scales share their numerator; their
  denominators are the count of kept indices, once as a float sum of 0/1 values from zero and once as a 32-bit integer
  sum of 0/1 words converted to a float: both are the natural number of kept indices, the integer sum not wrapping
  because the count is at most 2^24 < 2^31. On a finite w the straight-through spelling w + (sign w − w) is sign w.
-/
import proofs.«131205_j6511170421195_2_alg».proof.Proof.HostTerms
import proofs.«131205_j6511170421195_2_alg».proof.Pre_finite_inputs
import Idealize.ShloMosaic.PureOps.Ideal.Laws
import Idealize.ShloMosaic.PureOps.Reduce
import Idealize.ShloMosaic.Lib.IdealHost
import Idealize.ShloMosaic.Lib.IndicatorCount
import Idealize.ShloMosaic.Lib.ReduceAll
import Idealize.ShloMosaic.Lib.ValueIdx

noncomputable section

open Idealize.ShloMosaic

namespace Cert.Bridge

namespace Weights

/-! ## Counting: a sum of 0/1 indicators, as floats and as 32-bit words -/

/-- A finite sum of reals, read in the extended reals term by term, is the extended real of the sum. -/
theorem coe_finset_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A one-bit word read unsigned is 1 exactly when it is the word 1. -/
theorem toNat_bit (b : BitVec 1) : b.toNat = if b = 1#1 then 1 else 0 := by
  rcases BitVec.eq_zero_or_eq_one b with h | h <;> subst h <;> decide

/-- The sum of one-bit words read unsigned is the number of ones. -/
theorem sum_toNat_eq_card {ι : Type} (p : ι → BitVec 1) (S : Finset ι) :
    ∑ i ∈ S, (p i).toNat = (S.filter fun k => p k = 1#1).card := by
  classical
  rw [Finset.card_filter]
  exact Finset.sum_congr rfl fun i _ => toNat_bit (p i)

/-- Over a set of fewer than 2^31 indices, the 32-bit sum from zero of 0/1 words, read signed, is the sum of the
    same 0/1 values as extended reals: both are the number of ones, and the word sum does not wrap. -/
theorem toInt_fold_eq_sum {ι : Type} (p : ι → BitVec 1) (S : Finset ι) (hS : S.card < 2 ^ 31) :
    ((((S.fold IntOp.addi (0#32) (fun k => (p k).setWidth 32)).toInt : ℤ) : ℝ) : EReal)
      = ∑ i ∈ S, (((p i).toNat : ℝ) : EReal) := by
  classical
  rw [IndicatorCount.fold_addi_setWidth_eq_card, coe_finset_sum, ← Nat.cast_sum, sum_toNat_eq_card]
  have hc : (S.filter fun k => p k = 1#1).card < 2 ^ 31 := lt_of_le_of_lt (Finset.card_filter_le _ _) hS
  generalize (S.filter fun k => p k = 1#1).card = c at hc
  have hn : (BitVec.ofNat 32 c).toNat = c := by
    rw [BitVec.toNat_ofNat]; exact Nat.mod_eq_of_lt (by omega)
  have hi : (BitVec.ofNat 32 c).toInt = (c : ℤ) := by
    rw [BitVec.toInt_eq_toNat_of_lt (by rw [hn]; omega), hn]
  rw [hi]; norm_cast

/-! ## The kept count: the converted integer sum is the float sum -/

/-- At the ideal values a signed conversion of a word is the word's integer. -/
theorem sitofp_ideal_apply {s : Shape} (x : IVec s 32) (j : s.Idx) :
    (sitofp (F := Ideal) .f32 x : FVec Ideal s .f32) j = ((((x j).toInt : ℤ) : ℝ) : EReal) := rfl

/-- At the ideal values an unsigned conversion of a condition is the condition's 0 or 1. -/
theorem uitofp_ideal_apply {s : Shape} (x : IVec s 1) (j : s.Idx) :
    (uitofp (F := Ideal) .f32 x : FVec Ideal s .f32) j = ((((x j).toNat : ℕ) : ℝ) : EReal) := rfl

/-- The count of a condition summed as 32-bit words from zero and then converted is the float sum from zero of the
    condition converted element by element, over any array of fewer than 2^31 elements: both are the number of ones
    among the elements that reduce to the index, and the word sum cannot wrap. -/
theorem sitofp_reduce_extui_eq_reduceAdd_uitofp {s t u : Shape} {axes : List (Fin s.rank)} (b : IVec s 1)
    (h h' : s.ReducesTo axes t) (hu hu' : 0 < u.numel) (hn : 1 < 32) (hcard : s.numel < 2 ^ 31) :
    (sitofp (F := Ideal) .f32 (Host.reduce IntOp.addi (extui 32 b hn) (constantI u 32 0#32) h hu) : FVec Ideal t .f32)
      = Host.reduceAdd (F := Ideal) (uitofp (F := Ideal) .f32 b) (constant (F := Ideal) u .f32 0x00000000#32) h' hu' := by
  funext j
  have e1 : Host.reduce IntOp.addi (extui 32 b hn) (constantI u 32 0#32) h hu j
      = (Finset.univ.filter fun i => h.drop i = j).fold IntOp.addi (0#32) (fun k => (b k).setWidth 32) :=
    Host.reduce_eq_fold IntOp.addi (extui 32 b hn) (constantI u 32 0#32) h hu j
  have e2 : Host.reduceAdd (F := Ideal) (uitofp (F := Ideal) .f32 b) (constant (F := Ideal) u .f32 0x00000000#32) h' hu' j
      = 0 + ∑ i ∈ Finset.univ.filter (fun i => h.drop i = j), ((((b i).toNat : ℕ) : ℝ) : EReal) := by
    rw [ValueIdx.hostReduceAdd_apply]; unfold Ideal.hostReduceAdd
    rw [ValueIdx.constant_apply, Ideal.ofBits_zero_f32]; rfl
  have hS : (Finset.univ.filter fun i => h.drop i = j).card < 2 ^ 31 :=
    lt_of_le_of_lt ((Finset.card_filter_le _ _).trans (by rw [Finset.card_univ, Shape.card_idx])) hcard
  rw [sitofp_ideal_apply, e1, e2, zero_add]
  exact toInt_fold_eq_sum b _ hS

/-! ## The mask and the scale -/

section
variable [Cert.KernelIdeal.Facts] [Cert.ReferenceIdeal.Facts]

/-- The weight array has 2^24 elements. -/
theorem numel_w : Cert.KernelIdeal.S4096x4096.numel = 16777216 := by
  simp [Shape.numel, Fin.prod_univ_two]

/-- The two masks are one printed term of the weight, a mean and a deviation. -/
theorem kMaskOf_eq_rMaskOf (w : FVec Ideal Cert.KernelIdeal.S4096x4096 .f32) (μ σ : FVec Ideal Cert.KernelIdeal.S_ .f32) :
    kMaskOf w μ σ = rMaskOf w μ σ := rfl

/-- With equal means and deviations the two masks are equal. -/
theorem kMask_eq_rMask (w : FVec Ideal Cert.KernelIdeal.S4096x4096 .f32)
    (hmean : kMean w = rMean w) (hstd : kStd w = rStd w) : kMask w = rMask w := by
  unfold kMask rMask
  rw [hmean, hstd]
  exact kMaskOf_eq_rMaskOf w _ _

/-- With equal masks the two scales are equal: one numerator, and the kept count as a float sum or as a converted
    32-bit sum. -/
theorem kScale_eq_rScale (w : FVec Ideal Cert.KernelIdeal.S4096x4096 .f32) (hmask : kMask w = rMask w) :
    kScale w = rScale w := by
  unfold kScale rScale kKeep
  rw [← hmask]
  rw [sitofp_reduce_extui_eq_reduceAdd_uitofp (noti (kMask w)) Cert.ReferenceIdeal.Facts₀.reducesTo_S4096x4096_S_d0_1
    Cert.KernelIdeal.Facts₀.reducesTo_S4096x4096_S_d0_1 Cert.ReferenceIdeal.Facts₀.h_S_ Cert.KernelIdeal.Facts₀.h_S_
    Cert.ReferenceIdeal.Facts₀.natLt_1_32 (by rw [numel_w]; norm_num)]

/-! ## The sign through the straight-through spelling, and the assembly -/

/-- On a finite value the straight-through spelling r + (sign r − r) is sign r. -/
theorem add_sign_sub_self (r : ℝ) :
    ((r : ℝ) : EReal) + (Ideal.sign ((r : ℝ) : EReal) - ((r : ℝ) : EReal)) = Ideal.sign ((r : ℝ) : EReal) := by
  rw [Ideal.sign_coe, ← EReal.coe_sub, ← EReal.coe_add]
  congr 1; ring

end

end Weights

open Weights in
/-- The two simulated weights agree index by index on a finite weight, given equal means and deviations. -/
theorem kW_eq_rW [Cert.KernelIdeal.Facts] [Cert.ReferenceIdeal.Facts] (w : FVec Ideal Cert.KernelIdeal.S4096x4096 .f32)
    (hfin : ∀ i, ∃ r : ℝ, w i = (r : EReal)) (hmean : kMean w = rMean w) (hstd : kStd w = rStd w) :
    ∀ i, (kW w i : EReal) = rW w i := by
  intro i
  have hmask := kMask_eq_rMask w hmean hstd
  have hscale := kScale_eq_rScale w hmask
  obtain ⟨r, hr⟩ := hfin i
  unfold kW kSim rW
  rw [ValueIdx.truncf_apply, ← hmask, ← hscale, ValueIdx.select_apply, ValueIdx.select_apply]
  rcases BitVec.eq_zero_or_eq_one (kMask w i) with h | h
  · rw [h, ValueIdx.select_zero, ValueIdx.select_zero, ValueIdx.mulf_apply, ValueIdx.mulf_apply,
      ValueIdx.addf_apply, ValueIdx.subf_apply, Ideal.host_sign_eq_sign]
    beta_reduce
    rw [hr, add_sign_sub_self]
  · rw [h, ValueIdx.select_one, ValueIdx.select_one]

/-! ## The weight is finite under the precondition -/

namespace Weights

/-- A one-bit word made from a truth value is 1 exactly when the value is true. -/
theorem ofBool_eq_one_iff (b : Bool) : BitVec.ofBool b = 1#1 ↔ b = true := by cases b <;> decide

/-- An extended real whose absolute value is below +∞ is a real. -/
theorem real_of_abs_lt_top (a : EReal) (h : max a (-a) < ⊤) : ∃ r : ℝ, a = (r : EReal) := by
  induction a using EReal.rec with
  | bot => simp at h
  | top => simp at h
  | coe r => exact ⟨r, rfl⟩

end Weights

open Weights in
/-- Under the precondition every entry of the weight is a real. -/
theorem w_finite [Cert.Pre_finite_inputs.Facts] (x : FVec Ideal Cert.Pre_finite_inputs.S4x2048x4096 .f32)
    (w : FVec Ideal Cert.Pre_finite_inputs.S4096x4096 .f32) (b : FVec Ideal Cert.Pre_finite_inputs.S4096 .f32)
    (h : Cert.Pre_finite_inputs.fn (F := Ideal) x w b = fun _ => 1#1) :
    ∀ i, ∃ r : ℝ, w i = (r : EReal) := by
  intro i
  have h0 := congrFun h ValueIdx.ix0
  dsimp only [Cert.Pre_finite_inputs.fn] at h0
  obtain ⟨h1, _⟩ := IntOp.andi_eq_one.1 h0
  obtain ⟨_, h7⟩ := IntOp.andi_eq_one.1 h1
  have hi := Host.reduce_andi_eq_one _ _ _ _ _ h7 i (funext fun d => d.elim0)
  rw [ValueIdx.cmpf_apply, ValueIdx.broadcastInDim_scalar_apply, ValueIdx.constant_apply] at hi
  have htop : Ideal.ofBits .f32 0x7F800000#32 = ⊤ := by simp [Ideal.ofBits, Ideal.ieee]
  rw [htop] at hi
  refine real_of_abs_lt_top (w i) ?_
  have hc : Ideal.cmp .olt (max (w i) (-(w i))) ⊤ = 1#1 := hi
  unfold Ideal.cmp at hc
  have hlt : max (w i) (-(w i)) < ⊤ := by simpa [ofBool_eq_one_iff] using hc
  exact hlt

end Cert.Bridge

end
-- ==== Proof.Stats.lean ====
/-
  The two programs' standard deviations of the weight array are the same extended real when every entry is real.

  Write r_i for the entries, n = 2^24 for their number, S = ∑ r_i and μ = S / n. One program divides
  (∑ r_i²) − μ·μ·n by the literal n − 1; the other divides ∑ (r_i − μ)² by n − 1, computed as a difference and
  guarded by a test that this divisor is positive, which it is. Since S = n·μ,
      ∑ (r_i − μ)² = ∑ r_i² − 2μS + nμ² = ∑ r_i² − μ·μ·n,
  so the two variances, and hence their square roots, agree. The means are the same term on both sides.

  Each host sum from zero over the whole array is read as the plain sum over all indices; the broadcasts through the
  rank-zero and [1,1] shapes read their one entry; the float literals are read once as reals; the rest is algebra
  over ℝ, stated over an abstract finite index type so that nothing is ever evaluated over the 2^24 indices.
-/
import proofs.«131205_j6511170421195_2_alg».proof.Proof.HostTerms
import Idealize.ShloMosaic.Lib.IdealHost

noncomputable section

open Idealize.ShloMosaic Idealize.ShloMosaic.ValueIdx

namespace Cert.Bridge

/-- The pattern 0x4B800000 denotes 2^24. -/
theorem stats_ofBits_n : Ideal.ofBits .f32 0x4B800000#32 = ((16777216 : ℝ) : EReal) := by
  simp [Ideal.ofBits, Ideal.ieee, -EReal.coe_mul]; norm_num

/-- The pattern 0x4B7FFFFF denotes 2^24 - 1. -/
theorem stats_ofBits_n1 : Ideal.ofBits .f32 0x4B7FFFFF#32 = ((16777215 : ℝ) : EReal) := by
  simp [Ideal.ofBits, Ideal.ieee, -EReal.coe_mul]

/-- The coercion of a finite real sum is the sum of the coercions. -/
theorem stats_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The centred sum of squares is the sum of squares less n·μ², when n is the number of terms. -/
theorem stats_real_var {ι : Type} [Fintype ι] (r : ι → ℝ) (n : ℝ) (hn : (Fintype.card ι : ℝ) = n) (hn0 : n ≠ 0) :
    (∑ i, (r i - (∑ k, r k) / n) * (r i - (∑ k, r k) / n))
      = (∑ i, r i * r i) - ((∑ k, r k) / n) * ((∑ k, r k) / n) * n := by
  have hS : (∑ k, r k) = ((∑ k, r k) / n) * n := by field_simp
  generalize hμ : (∑ k, r k) / n = μ at hS ⊢
  have hterm : ∀ i, (r i - μ) * (r i - μ) = r i * r i - 2 * μ * r i + μ * μ := fun i => by ring
  simp only [hterm, Finset.sum_add_distrib, Finset.sum_sub_distrib, ← Finset.mul_sum, Finset.sum_const,
    Finset.card_univ, nsmul_eq_mul, hn]
  rw [hS]; ring

/-- The array has 2^24 entries. -/
theorem stats_card : (Fintype.card (⟨2, ![4096, 4096]⟩ : Shape).Idx : ℝ) = 16777216 := by
  rw [Shape.card_idx]
  simp [Shape.numel, Fin.prod_univ_two]

/-- A host sum from zero into a shape of unit axes is the plain sum over every index of the operand. -/
theorem stats_sum_from_zero {s t u : Shape} {axes : List (Fin s.rank)} (x : FVec Ideal s .f32)
    (h : s.ReducesTo axes t) (hu : 0 < u.numel) (ht : ∀ b, t.size b = 1) (j : t.Idx) :
    Host.reduceAdd (F := Ideal) x (constant (F := Ideal) u .f32 0x00000000#32) h hu j = ∑ i : s.Idx, x i := by
  rw [hostReduceAdd_apply, Ideal.hostReduceAdd_total h ht, constant_apply, Ideal.ofBits_zero_f32, zero_add]

/-- The two variance formulas over the extended reals, for real entries: sums first against centred. -/
theorem stats_var_core {ι : Type} [Fintype ι] (r : ι → ℝ) (hcard : (Fintype.card ι : ℝ) = 16777216) (junk : EReal) :
    Ideal.div ((∑ i, (r i : EReal) * (r i : EReal))
        - Ideal.div (∑ i, (r i : EReal)) ((16777216 : ℝ) : EReal) * Ideal.div (∑ i, (r i : EReal)) ((16777216 : ℝ) : EReal)
            * ((16777216 : ℝ) : EReal))
      ((16777215 : ℝ) : EReal)
    = Scalar.select (Ideal.cmp .ogt (((16777216 : ℝ) : EReal) - ((1 : ℝ) : EReal)) 0)
        (Ideal.div (∑ i, ((r i : EReal) - Ideal.div (∑ k, (r k : EReal)) ((16777216 : ℝ) : EReal))
                        * ((r i : EReal) - Ideal.div (∑ k, (r k : EReal)) ((16777216 : ℝ) : EReal)))
          (((16777216 : ℝ) : EReal) - ((1 : ℝ) : EReal)))
        junk := by
  have h16 : (16777216 : ℝ) ≠ 0 := by norm_num
  have h15 : (16777215 : ℝ) ≠ 0 := by norm_num
  have hden : ((16777216 : ℝ) : EReal) - ((1 : ℝ) : EReal) = ((16777215 : ℝ) : EReal) := by
    rw [← EReal.coe_sub]; norm_num
  have hpos : (0 : EReal) < ((16777215 : ℝ) : EReal) := EReal.coe_pos.mpr (by norm_num)
  rw [hden]
  have hcmp : Ideal.cmp .ogt ((16777215 : ℝ) : EReal) 0 = 1#1 := by
    unfold Ideal.cmp
    simp only [hpos, decide_true]
    rfl
  rw [hcmp, select_one]
  simp only [← stats_coe_sum, ← EReal.coe_mul, Ideal.div_coe h16, Ideal.div_coe h15, ← EReal.coe_sub]
  have hreal := stats_real_var r 16777216 hcard h16
  rw [div_eq_mul_one_div] at hreal
  rw [hreal]

/-- The rank-zero shape has no axis, so each of its axes has size one. -/
theorem stats_unit_S_ : ∀ b : Fin (⟨0, ![]⟩ : Shape).rank, (⟨0, ![]⟩ : Shape).size b = 1 := fun b => b.elim0

/-- Both axes of the [1,1] shape have size one. -/
theorem stats_unit_S1x1 : ∀ a : Fin (⟨2, ![1, 1]⟩ : Shape).rank, (⟨2, ![1, 1]⟩ : Shape).size a = 1 := by
  intro a; fin_cases a <;> rfl

/-- A broadcast of an array all of whose axes are unit axes reads its one entry everywhere. -/
theorem stats_bcast_unit {s t : Shape} {α : Type} (dims : Fin s.rank → Fin t.rank) (h : s.BroadcastsInDim t dims)
    (hs : ∀ a, s.size a = 1) (x : s.Idx → α) (j : t.Idx) (k : s.Idx) : broadcastInDim t dims h x j = x k := by
  unfold broadcastInDim
  refine congrArg x (funext fun a => Fin.ext ?_)
  rw [dif_pos (hs a)]
  have h1 := (k a).isLt
  have h2 := hs a
  show 0 = (k a).val
  omega

/-- The 32-bit integer one, converted, is the real one. -/
theorem stats_sitofp_one : FloatOps.sitofp (F := Ideal) .f32 (1#32 : BitVec 32) = ((1 : ℝ) : EReal) := by
  have h : (1#32 : BitVec 32).toInt = 1 := by decide
  show ((((1#32 : BitVec 32).toInt : ℤ) : ℝ) : EReal) = ((1 : ℝ) : EReal)
  rw [h, Int.cast_one]

section
variable [Cert.KernelIdeal.Facts] [Cert.ReferenceIdeal.Facts]

/-- The two means are one term: the programs spell the same sum and the same divisor. -/
theorem mean_eq (w : FVec Ideal Cert.KernelIdeal.S4096x4096 .f32) : kMean w = rMean w := rfl

/-- The sums-first variance read at its one index, over plain sums and real literals. -/
theorem stats_kVar_apply (w : FVec Ideal Cert.KernelIdeal.S4096x4096 .f32) (j : Cert.KernelIdeal.S_.Idx) :
    kVar w j = Ideal.div ((∑ i, w i * w i)
        - Ideal.div (∑ i, w i) ((16777216 : ℝ) : EReal) * Ideal.div (∑ i, w i) ((16777216 : ℝ) : EReal)
            * ((16777216 : ℝ) : EReal))
      ((16777215 : ℝ) : EReal) := by
  unfold kVar kMean kSumSq kSum
  simp only [hostDivf_apply, subf_apply, mulf_apply, constant_apply,
    stats_sum_from_zero (t := ⟨0, ![]⟩) _ _ _ stats_unit_S_, stats_ofBits_n, stats_ofBits_n1]

/-- The centred variance read at its one index: the guard, the quotient of the centred sum of squares by the
    difference n − 1, and the other branch's pattern. -/
theorem stats_rVar_apply (w : FVec Ideal Cert.ReferenceIdeal.S4096x4096 .f32) (j : Cert.ReferenceIdeal.S_.Idx) :
    rVar w j = Scalar.select (Ideal.cmp .ogt (((16777216 : ℝ) : EReal) - ((1 : ℝ) : EReal)) 0)
        (Ideal.div (∑ i, (w i - Ideal.div (∑ k, w k) ((16777216 : ℝ) : EReal))
                        * (w i - Ideal.div (∑ k, w k) ((16777216 : ℝ) : EReal)))
          (((16777216 : ℝ) : EReal) - ((1 : ℝ) : EReal)))
        (Ideal.ofBits .f32 0x7FC00000#32) := by
  unfold rVar rDen rCentSq rSum
  simp only [select_apply, cmpf_apply, Ideal.cmpf_def, hostDivf_apply, subf_apply, mulf_apply, constant_apply, sitofp_apply,
    constantI, id_eq,
    stats_sum_from_zero (t := ⟨0, ![]⟩) _ _ _ stats_unit_S_,
    stats_bcast_unit (s := ⟨2, ![1, 1]⟩) _ _ stats_unit_S1x1 _ _ (ix2 (0 : Fin 1) (0 : Fin 1)),
    stats_bcast_unit (s := ⟨0, ![]⟩) _ _ stats_unit_S_ _ _ ix0,
    stats_ofBits_n, Ideal.ofBits_zero_f32, stats_sitofp_one]

/-- The two variances agree on an array of real entries. -/
theorem stats_var_eq (w : FVec Ideal Cert.KernelIdeal.S4096x4096 .f32)
    (hfin : ∀ i, ∃ r : ℝ, w i = (r : EReal)) : kVar w = rVar w := by
  funext j
  have hr : ∀ i, w i = (((fun i => (hfin i).choose) i : ℝ) : EReal) := fun i => (hfin i).choose_spec
  generalize (fun i => (hfin i).choose) = r at hr
  rw [stats_kVar_apply, stats_rVar_apply]
  simp only [hr]
  exact stats_var_core r stats_card _

/-- The two standard deviations agree on an array of real entries: the square root of equal variances. -/
theorem std_eq (w : FVec Ideal Cert.KernelIdeal.S4096x4096 .f32)
    (hfin : ∀ i, ∃ r : ℝ, w i = (r : EReal)) : kStd w = rStd w := by
  unfold kStd rStd
  rw [stats_var_eq w hfin]

end

end Cert.Bridge

end
-- ==== Proof.Layout.lean ====
import proofs.«131205_j6511170421195_2_alg».proof.KernelIdeal
import Idealize.ShloMosaic.Lib.ValueIdx
import Idealize.ShloMosaic.Lib.Pipeline.Value
import Idealize.ShloMosaic.Lib.ValueLayout

noncomputable section

open scoped BigOperators
open Cert.KernelIdeal Idealize.ShloMosaic Idealize.ShloMosaic.ValueIdx

namespace Cert.KernelIdeal.Layout

/-- The row of the flattened [8192, 4096] array that holds batch b, position s: b · 2048 + s. -/
def rc (b : Fin 4) (s : Fin 2048) : Fin 8192 :=
  ⟨b.val * 2048 + s.val, by have := b.isLt; have := s.isLt; omega⟩

/-- Its value. -/
theorem rc_val (b : Fin 4) (s : Fin 2048) : (rc b s).val = b.val * 2048 + s.val := rfl

/-- The reshape [4, 2048, 4096] → [8192, 4096] reads, at (b · 2048 + s, i), the operand at (b, s, i): the two
    indices have the same row-major position. -/
theorem reshape_x_apply (x : FVec Ideal S4x2048x4096 .f32) (h : S4x2048x4096.ShapeCasts S8192x4096)
    (b : Fin 4) (s : Fin 2048) (i : Fin 4096) :
    shapeCast S8192x4096 x h (ix2 (rc b s) i) = x (ix3 b s i) :=
  shapeCast_apply x h _ _ (by
    rw [Shape.rowMajor_val_three, Shape.rowMajor_val_two]
    show (b.val * 2048 + s.val) * 4096 + i.val = (b.val * 2048 + s.val) * 4096 + i.val
    rfl)

/-- The reshape back, [8192, 4096] → [4, 2048, 4096], reads, at (b, s, o), the operand at (b · 2048 + s, o). -/
theorem reshape_out_apply (y : FVec Ideal S8192x4096 .f32) (h : S8192x4096.ShapeCasts S4x2048x4096)
    (b : Fin 4) (s : Fin 2048) (o : Fin 4096) :
    shapeCast S4x2048x4096 y h (ix3 b s o) = y (ix2 (rc b s) o) :=
  shapeCast_apply y h _ _ (by
    rw [Shape.rowMajor_val_three, Shape.rowMajor_val_two]
    show (b.val * 2048 + s.val) * 4096 + o.val = (b.val * 2048 + s.val) * 4096 + o.val
    rfl)

/-- The bias [4096] as one row [1, 4096] reads, at (0, o), the operand at o. -/
theorem reshape_bias_apply (bias : FVec Ideal S4096 .f32) (h : S4096.ShapeCasts S1x4096) (o : Fin 4096) :
    shapeCast S1x4096 bias h (ix2 (0 : Fin 1) o) = bias (ix1 o) :=
  shapeCast_a_1a_apply bias h 0 o

/-- A sum over 4096 terms is the sum of its four consecutive blocks of 1024, in any additive commutative monoid. -/
theorem chunk4' {M : Type*} [AddCommMonoid M] (f : Fin 4096 → M) (idx : Fin 4 → Fin 1024 → Fin 4096)
    (hidx : ∀ k l, (idx k l).val = k.val * 1024 + l.val) :
    (((0 + ∑ l, f (idx 0 l)) + ∑ l, f (idx 1 l)) + ∑ l, f (idx 2 l)) + ∑ l, f (idx 3 l) = ∑ i : Fin 4096, f i := by
  let e : Fin 4 × Fin 1024 ≃ Fin 4096 := finProdFinEquiv.trans (finCongr (by norm_num))
  have he : ∀ k l, e (k, l) = idx k l := fun k l => Fin.ext (by
    rw [hidx]
    show l.val + 1024 * k.val = k.val * 1024 + l.val
    omega)
  rw [← Equiv.sum_comp e f, Fintype.sum_prod_type, Fin.sum_univ_four, zero_add]
  simp only [he]

/-- The same over the extended reals: the contraction over 4096, accumulated block by block from zero in the order
    of the grid's last axis, is the whole contraction. -/
theorem chunk4 (f : Fin 4096 → EReal) (idx : Fin 4 → Fin 1024 → Fin 4096)
    (hidx : ∀ k l, (idx k l).val = k.val * 1024 + l.val) :
    (((0 + ∑ l, f (idx 0 l)) + ∑ l, f (idx 1 l)) + ∑ l, f (idx 2 l)) + ∑ l, f (idx 3 l) = ∑ i : Fin 4096, f i :=
  chunk4' f idx hidx

end Cert.KernelIdeal.Layout

end
-- ==== Proof.Bridge.lean ====
/-
  The two programs' results are one function of (x, w, bias).

  The reference's result at (b, s, o) is the plain sum  ∑_{i < 4096} x(b, s, i) · W(o, i) + bias(o): the host's general
  product contracts x's last axis with W's second, and the bias is broadcast along the last axis. The kernel's result
  at (b, s, o) is the same sum over the flattened activations and the kernel's simulated weight; the flattening reads
  x(b, s, i) at row b · 2048 + s, the format change is the identity at the ideal values, and the two simulated weights
  agree index by index on a finite w. Both sides are then the same sum term by term.
-/
import proofs.«131205_j6511170421195_2_alg».proof.Proof.OutTerms
import proofs.«131205_j6511170421195_2_alg».proof.Proof.Weights
import proofs.«131205_j6511170421195_2_alg».proof.Proof.Stats
import proofs.«131205_j6511170421195_2_alg».proof.Proof.Layout
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Bridge

namespace OutAux

section
variable [Cert.ReferenceIdeal.Facts]

/-- The dimension numbers of the reference's product: x's axis 2 contracted with W's axis 1. -/
abbrev dotR : DotDims Cert.ReferenceIdeal.S4x2048x4096 Cert.ReferenceIdeal.S4096x4096 Cert.ReferenceIdeal.S4x2048x4096 :=
  Cert.ReferenceIdeal.dot_S4x2048x4096_S4096x4096_S4x2048x4096_2_1_01_0_n_n

/-- The left operand's index at output (b, s, o) and contraction coordinate i is (b, s, i). -/
theorem lhsIdx_eq (b : Fin 4) (s : Fin 2048) (o : Fin 4096) (i : Fin 4096) :
    dotR.lhsIdx (ix3 b s o) ((contrEquiv1 dotR 4096 rfl rfl).symm i) = ix3 b s i := by
  funext ax; apply Fin.ext
  match ax with
  | ⟨0, _⟩ => simp [DotDims.lhsIdx, dotR, Cert.ReferenceIdeal.dot_S4x2048x4096_S4096x4096_S4x2048x4096_2_1_01_0_n_n]; rfl
  | ⟨1, _⟩ => simp [DotDims.lhsIdx, dotR, Cert.ReferenceIdeal.dot_S4x2048x4096_S4096x4096_S4x2048x4096_2_1_01_0_n_n]; rfl
  | ⟨2, _⟩ =>
    exact (DotDims.lhsIdx_val_of_single (d := dotR) (cl := 2) rfl (ix3 b s o) _).trans
      (contrEquiv1_symm_val dotR 4096 rfl rfl i)

/-- The right operand's index at output (b, s, o) and contraction coordinate i is (o, i): W's rows are the output's
    last axis. -/
theorem rhsIdx_eq (b : Fin 4) (s : Fin 2048) (o : Fin 4096) (i : Fin 4096) :
    dotR.rhsIdx (ix3 b s o) ((contrEquiv1 dotR 4096 rfl rfl).symm i) = ix2 o i := by
  funext ax; apply Fin.ext
  match ax with
  | ⟨0, _⟩ => simp [DotDims.rhsIdx, dotR, Cert.ReferenceIdeal.dot_S4x2048x4096_S4096x4096_S4x2048x4096_2_1_01_0_n_n]; rfl
  | ⟨1, _⟩ =>
    exact (DotDims.rhsIdx_val_of_single (d := dotR) (cr := 1) rfl (ix3 b s o) _).trans
      (contrEquiv1_symm_val dotR 4096 rfl rfl i)

/-- The host's product at (b, s, o): the sum over the contracted coordinate of x(b, s, i) · W(o, i). -/
theorem dot_apply (x : FVec Ideal Cert.ReferenceIdeal.S4x2048x4096 .f32) (W : FVec Ideal Cert.ReferenceIdeal.S4096x4096 .f32)
    (b : Fin 4) (s : Fin 2048) (o : Fin 4096) :
    Host.dotGeneral (F := Ideal) dotR none x W (ix3 b s o) = ∑ i : Fin 4096, x (ix3 b s i) * W (ix2 o i) := by
  refine (Ideal.dotGeneral_apply dotR none .single x W (ix3 b s o)).trans ?_
  rw [← Equiv.sum_comp (contrEquiv1 dotR 4096 rfl rfl).symm]
  refine Finset.sum_congr rfl fun i _ => ?_
  rw [lhsIdx_eq, rhsIdx_eq]

/-- The bias broadcast to [1, 1, 4096] and then to [4, 2048, 4096], read at (b, s, o), is bias(o). -/
theorem bias_bcast_apply (bias : FVec Ideal Cert.ReferenceIdeal.S4096 .f32)
    (h1 : Cert.ReferenceIdeal.S1x1x4096.BroadcastsInDim Cert.ReferenceIdeal.S4x2048x4096 ![0, 1, 2])
    (h2 : Cert.ReferenceIdeal.S4096.BroadcastsInDim Cert.ReferenceIdeal.S1x1x4096 ![2])
    (b : Fin 4) (s : Fin 2048) (o : Fin 4096) :
    broadcastInDim Cert.ReferenceIdeal.S4x2048x4096 ![0, 1, 2] h1
      (broadcastInDim Cert.ReferenceIdeal.S1x1x4096 ![2] h2 bias) (ix3 b s o) = bias (ix1 o) := by
  refine (broadcastInDim_apply ![0, 1, 2] h1 _ (ix3 b s o) (ix3 (0 : Fin 1) (0 : Fin 1) o) ?_).trans ?_
  · intro a
    match a with
    | ⟨0, _⟩ => rfl
    | ⟨1, _⟩ => rfl
    | ⟨2, _⟩ => rfl
  · refine broadcastInDim_apply ![2] h2 bias (ix3 (0 : Fin 1) (0 : Fin 1) o) (ix1 o) ?_
    intro a
    match a with
    | ⟨0, _⟩ => rfl

end

end OutAux

open OutAux in
/-- The reference's result at (b, s, o): the contraction of x's last axis with W's second, plus the bias at o. -/
theorem rOut_apply [Cert.ReferenceIdeal.Facts] (x : FVec Ideal Cert.ReferenceIdeal.S4x2048x4096 .f32)
    (W : FVec Ideal Cert.ReferenceIdeal.S4096x4096 .f32) (bias : FVec Ideal Cert.ReferenceIdeal.S4096 .f32)
    (b : Fin 4) (s : Fin 2048) (o : Fin 4096) :
    Cert.ReferenceIdeal.RefRun.rOut x W bias (ValueIdx.ix3 b s o)
      = (∑ i : Fin 4096, x (ValueIdx.ix3 b s i) * W (ValueIdx.ix2 o i)) + bias (ValueIdx.ix1 o) := by
  unfold Cert.ReferenceIdeal.RefRun.rOut
  rw [ValueIdx.addf_apply, bias_bcast_apply]
  exact congrArg (· + bias (ix1 o)) (dot_apply x W b s o)

/-- The kernel program's result and the reference's, the reference run on the reference's simulated weight, are one
    function on a finite weight. -/
theorem kOut_eq_rOut [Cert.KernelIdeal.Facts] [Cert.ReferenceIdeal.Facts] (x : FVec Ideal Cert.KernelIdeal.S4x2048x4096 .f32)
    (w : FVec Ideal Cert.KernelIdeal.S4096x4096 .f32) (bias : FVec Ideal Cert.KernelIdeal.S4096 .f32)
    (hfin : ∀ i, ∃ r : ℝ, w i = (r : EReal)) :
    Cert.KernelIdeal.Out.kOut x w bias = Cert.ReferenceIdeal.RefRun.rOut x (rW w) bias := by
  funext J
  obtain ⟨b, s, o, rfl⟩ : ∃ (b : Fin 4) (s : Fin 2048) (o : Fin 4096), J = ix3 b s o := ⟨J 0, J 1, J 2, eq_ix3 J⟩
  rw [rOut_apply]
  unfold Cert.KernelIdeal.Out.kOut
  rw [Cert.KernelIdeal.Layout.reshape_out_apply, Cert.KernelIdeal.Out.G_apply, Cert.KernelIdeal.Layout.reshape_bias_apply]
  refine congrArg (· + bias (ix1 o)) (Finset.sum_congr rfl fun i _ => ?_)
  rw [ValueIdx.truncf_apply, Cert.KernelIdeal.Layout.reshape_x_apply, kW_eq_rW w hfin (mean_eq w) (std_eq w hfin) (ix2 o i)]

end Cert.Bridge

end
-- ==== Proof.lean ====
/-
  A linear layer whose weight is binarized except for outliers: out[b, s, o] = ∑_i x[b, s, i] · ŵ[o, i] + bias[o], where
  ŵ keeps an entry of w lying more than 1.6 standard deviations from the mean and replaces every other entry by
  sign(w) · (mean of |w| over the kept-as-binary entries).

  Over the extended reals, for finite inputs, the two programs compute the same array:
  * the variance: the kernel program spells it sums-first, ((∑ w²) − μ·μ·n) / (n − 1), the reference centred,
    (∑ (w − μ)²) / (n − 1) behind a positivity test of n − 1; for finite entries both are the same real number, since
    ∑ (w − μ)² = ∑ w² − 2μ ∑ w + nμ² and ∑ w = nμ;  so the deviations, the thresholds and the outlier masks agree;
  * the count of binarized entries: a float sum of 0/1 indicators on one side, a 32-bit integer sum converted on the
    other; the count is at most 2^24, so the integer sum does not wrap and both are the count;
  * the sign: sign w on one side, w + (sign w − w) on the other, equal for finite w;
  * the product: the kernel sweeps the contraction axis in four blocks of 1024 into an accumulator that starts from
    zero, and adds the bias after the last block; the reference contracts all 4096 terms at once; sums over the
    extended reals may be regrouped freely, and the reshapes on either side only rename indices.
  The format changes on the kernel side are the identity at this instance.  The frames of the two kernel programs are
  the generated ones; the reference's frame is its run with the result dropped.
-/
import proofs.«131205_j6511170421195_2_alg».proof.Defs
import proofs.«131205_j6511170421195_2_alg».proof.Proof.Gen.Kernel
import proofs.«131205_j6511170421195_2_alg».proof.Proof.Gen.Kernel.Skeleton
import proofs.«131205_j6511170421195_2_alg».proof.Proof.Gen.Kernel.Launch
import proofs.«131205_j6511170421195_2_alg».proof.Proof.Gen.Kernel.Points
import proofs.«131205_j6511170421195_2_alg».proof.Proof.Gen.Kernel.Frame
import proofs.«131205_j6511170421195_2_alg».proof.Proof.Gen.KernelIdeal
import proofs.«131205_j6511170421195_2_alg».proof.Proof.Gen.KernelIdeal.Skeleton
import proofs.«131205_j6511170421195_2_alg».proof.Proof.Gen.KernelIdeal.Launch
import proofs.«131205_j6511170421195_2_alg».proof.Proof.Gen.KernelIdeal.Points
import proofs.«131205_j6511170421195_2_alg».proof.Proof.Gen.KernelIdeal.Frame
import proofs.«131205_j6511170421195_2_alg».proof.Proof.Gen.ReferenceIdeal
import proofs.«131205_j6511170421195_2_alg».proof.Proof.Gen.Pre_finite_inputs
import proofs.«131205_j6511170421195_2_alg».proof.Proof.KernelRun
import proofs.«131205_j6511170421195_2_alg».proof.Proof.RefRun
import proofs.«131205_j6511170421195_2_alg».proof.Proof.Weights
import proofs.«131205_j6511170421195_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end with the same array: the kernel program at kOut of its arguments, the reference at rOut of
    arguments that agree, and the two are one function when the weight is finite, which the precondition gives. -/
theorem algebraic : Cert.algebraic_KernelIdeal_ReferenceIdeal := by
  intro m ρ m' ρ' hpre hagree
  refine ⟨fun c => Cert.KernelIdeal.Out.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run_kOut m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  exact (Cert.Bridge.kOut_eq_rOut _ _ _ (Cert.Bridge.w_finite _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
